-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S1408x512 : Shape := ⟨2, ![1408, 512]⟩
abbrev S512x1408 : Shape := ⟨2, ![512, 1408]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S1408x512 : S_.BroadcastsInDim S1408x512 (![] : Fin 0 → Fin S1408x512.rank)
  reducesTo_S1408x512_S_d0_1 : S1408x512.ReducesTo [0, 1] S_
  bcast_S_S512x1408 : S_.BroadcastsInDim S512x1408 (![] : Fin 0 → Fin S512x1408.rank)
  reducesTo_S512x1408_S_d0_1 : S512x1408.ReducesTo [0, 1] S_

variable [Facts]

def fn_part1 {F : FTy → Type} [FloatOps F] (main_v13 : IVec S_ 1) (main_v16 : IVec S512x1408 1) : IVec S_ 1 :=
  let main_c_5 : IVec S_ 1 := constantI S_ 1 1#1
  let main_v17 : IVec S_ 1 := (fun x v => Host.reduce IntOp.andi x v reducesTo_S512x1408_S_d0_1 h_S_) main_v16 main_c_5
  let main_v18 : IVec S_ 1 := andi main_v13 main_v17
  main_v18

def fn {F : FTy → Type} [FloatOps F] (main_arg0 : FVec F S8x4096x512 .f32) (main_arg1 : FVec F S1408x512 .f32) (main_arg2 : FVec F S1408x512 .f32) (main_arg3 : FVec F S512x1408 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S1408x512 .f32 := Host.absf main_arg1
  let main_cst_0 : FVec F S_ .f32 := constant S_ .f32 0x7F800000#32
  let main_v5 : FVec F S1408x512 .f32 := broadcastInDim S1408x512 ![] bcast_S_S1408x512 main_cst_0
  let main_v6 : IVec S1408x512 1 := cmpf .olt main_v4 main_v5
  let main_c_1 : IVec S_ 1 := constantI S_ 1 1#1
  let main_v7 : IVec S_ 1 := (fun x v => Host.reduce IntOp.andi x v reducesTo_S1408x512_S_d0_1 h_S_) main_v6 main_c_1
  let main_v8 : IVec S_ 1 := andi main_v3 main_v7
  let main_v9 : FVec F S1408x512 .f32 := Host.absf main_arg2
  let main_cst_2 : FVec F S_ .f32 := constant S_ .f32 0x7F800000#32
  let main_v10 : FVec F S1408x512 .f32 := broadcastInDim S1408x512 ![] bcast_S_S1408x512 main_cst_2
  let main_v11 : IVec S1408x512 1 := cmpf .olt main_v9 main_v10
  let main_c_3 : IVec S_ 1 := constantI S_ 1 1#1
  let main_v12 : IVec S_ 1 := (fun x v => Host.reduce IntOp.andi x v reducesTo_S1408x512_S_d0_1 h_S_) main_v11 main_c_3
  let main_v13 : IVec S_ 1 := andi main_v8 main_v12
  let main_v14 : FVec F S512x1408 .f32 := Host.absf main_arg3
  let main_cst_4 : FVec F S_ .f32 := constant S_ .f32 0x7F800000#32
  let main_v15 : FVec F S512x1408 .f32 := broadcastInDim S512x1408 ![] bcast_S_S512x1408 main_cst_4
  let main_v16 : IVec S512x1408 1 := cmpf .olt main_v14 main_v15
  fn_part1 (F := F) main_v13 main_v16
-- ==== Kernel.lean ====
abbrev S8x4096x512 : Shape := ⟨3, ![8, 4096, 512]⟩
abbrev S1408x512 : Shape := ⟨2, ![1408, 512]⟩
abbrev S512x1408 : Shape := ⟨2, ![512, 1408]⟩
abbrev S1408x4x128 : Shape := ⟨3, ![1408, 4, 128]⟩
abbrev S_ : Shape := ⟨0, ![]⟩
abbrev S1408x4 : Shape := ⟨2, ![1408, 4]⟩
abbrev S1408x4x1 : Shape := ⟨3, ![1408, 4, 1]⟩
abbrev S512x11x128 : Shape := ⟨3, ![512, 11, 128]⟩
abbrev S512x11 : Shape := ⟨2, ![512, 11]⟩
abbrev S512x11x1 : Shape := ⟨3, ![512, 11, 1]⟩
abbrev S32768x512 : Shape := ⟨2, ![32768, 512]⟩
abbrev S512x512 : Shape := ⟨2, ![512, 512]⟩

abbrev nBuf : Space → Nat
  | .hbm => 88
  | .vmem => 7
  | .smem => 0
  | _ => 0

abbrev bufTy : (tb : Table) → Fin (tcTables nBuf tb) → BufTy
  | .hbm, ⟨0, _⟩ => ⟨S8x4096x512, .f32⟩
  | .hbm, ⟨1, _⟩ => ⟨S1408x512, .f32⟩
  | .hbm, ⟨2, _⟩ => ⟨S1408x512, .f32⟩
  | .hbm, ⟨3, _⟩ => ⟨S512x1408, .f32⟩
  | .hbm, ⟨4, _⟩ => ⟨S1408x4x128, .f32⟩
  | .hbm, ⟨5, _⟩ => ⟨S1408x4x128, .f32⟩
  | .hbm, ⟨6, _⟩ => ⟨S_, .f32⟩
  | .hbm, ⟨7, _⟩ => ⟨S1408x4, .f32⟩
  | .hbm, ⟨8, _⟩ => ⟨S1408x4x1, .f32⟩
  | .hbm, ⟨9, _⟩ => ⟨S_, .f32⟩
  | .hbm, ⟨10, _⟩ => ⟨S1408x4x1, .f32⟩
  | .hbm, ⟨11, _⟩ => ⟨S1408x4x1, .f32⟩
  | .hbm, ⟨12, _⟩ => ⟨S_, .f32⟩
  | .hbm, ⟨13, _⟩ => ⟨S1408x4x1, .f32⟩
  | .hbm, ⟨14, _⟩ => ⟨S1408x4x1, .f32⟩
  | .hbm, ⟨15, _⟩ => ⟨S1408x4x128, .f32⟩
  | .hbm, ⟨16, _⟩ => ⟨S1408x4x128, .f32⟩
  | .hbm, ⟨17, _⟩ => ⟨S1408x4x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1408x4x128, .f32⟩
  | .hbm, ⟨22, _⟩ => ⟨S1408x4x128, .f32⟩
  | .hbm, ⟨23, _⟩ => ⟨S_, .f32⟩
  | .hbm, ⟨24, _⟩ => ⟨S1408x4x128, .f32⟩
  | .hbm, ⟨25, _⟩ => ⟨S1408x4x128, .f32⟩
  | .hbm, ⟨26, _⟩ => ⟨S1408x4x128, .f32⟩
  | .hbm, ⟨27, _⟩ => ⟨S1408x4x128, .f32⟩
  | .hbm, ⟨28, _⟩ => ⟨S1408x512, .f32⟩
  | .hbm, ⟨29, _⟩ => ⟨S1408x4x128, .f32⟩
  | .hbm, ⟨30, _⟩ => ⟨S1408x4x128, .f32⟩
  | .hbm, ⟨31, _⟩ => ⟨S_, .f32⟩
  | .hbm, ⟨32, _⟩ => ⟨S1408x4, .f32⟩
  | .hbm, ⟨33, _⟩ => ⟨S1408x4x1, .f32⟩
  | .hbm, ⟨34, _⟩ => ⟨S_, .f32⟩
  | .hbm, ⟨35, _⟩ => ⟨S1408x4x1, .f32⟩
  | .hbm, ⟨36, _⟩ => ⟨S1408x4x1, .f32⟩
  | .hbm, ⟨37, _⟩ => ⟨S_, .f32⟩
  | .hbm, ⟨38, _⟩ => ⟨S1408x4x1, .f32⟩
  | .hbm, ⟨39, _⟩ => ⟨S1408x4x1, .f32⟩
  | .hbm, ⟨40, _⟩ => ⟨S1408x4x128, .f32⟩
  | .hbm, ⟨41, _⟩ => ⟨S1408x4x128, .f32⟩
  | .hbm, ⟨42, _⟩ => ⟨S1408x4x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1408x4x128, .f32⟩
  | .hbm, ⟨47, _⟩ => ⟨S1408x4x128, .f32⟩
  | .hbm, ⟨48, _⟩ => ⟨S_, .f32⟩
  | .hbm, ⟨49, _⟩ => ⟨S1408x4x128, .f32⟩
  | .hbm, ⟨50, _⟩ => ⟨S1408x4x128, .f32⟩
  | .hbm, ⟨51, _⟩ => ⟨S1408x4x128, .f32⟩
  | .hbm, ⟨52, _⟩ => ⟨S1408x4x128, .f32⟩
  | .hbm, ⟨53, _⟩ => ⟨S1408x512, .f32⟩
  | .hbm, ⟨54, _⟩ => ⟨S512x11x128, .f32⟩
  | .hbm, ⟨55, _⟩ => ⟨S512x11x128, .f32⟩
  | .hbm, ⟨56, _⟩ => ⟨S_, .f32⟩
  | .hbm, ⟨57, _⟩ => ⟨S512x11, .f32⟩
  | .hbm, ⟨58, _⟩ => ⟨S512x11x1, .f32⟩
  | .hbm, ⟨59, _⟩ => ⟨S_, .f32⟩
  | .hbm, ⟨60, _⟩ => ⟨S512x11x1, .f32⟩
  | .hbm, ⟨61, _⟩ => ⟨S512x11x1, .f32⟩
  | .hbm, ⟨62, _⟩ => ⟨S_, .f32⟩
  | .hbm, ⟨63, _⟩ => ⟨S512x11x1, .f32⟩
  | .hbm, ⟨64, _⟩ => ⟨S512x11x1, .f32⟩
  | .hbm, ⟨65, _⟩ => ⟨S512x11x128, .f32⟩
  | .hbm, ⟨66, _⟩ => ⟨S512x11x128, .f32⟩
  | .hbm, ⟨67, _⟩ => ⟨S512x11x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S512x11x128, .f32⟩
  | .hbm, ⟨72, _⟩ => ⟨S512x11x128, .f32⟩
  | .hbm, ⟨73, _⟩ => ⟨S_, .f32⟩
  | .hbm, ⟨74, _⟩ => ⟨S512x11x128, .f32⟩
  | .hbm, ⟨75, _⟩ => ⟨S512x11x128, .f32⟩
  | .hbm, ⟨76, _⟩ => ⟨S512x11x128, .f32⟩
  | .hbm, ⟨77, _⟩ => ⟨S512x11x128, .f32⟩
  | .hbm, ⟨78, _⟩ => ⟨S512x1408, .f32⟩
  | .hbm, ⟨79, _⟩ => ⟨S512x1408, .f32⟩
  | .hbm, ⟨80, _⟩ => ⟨S512x1408, .bf16⟩
  | .hbm, ⟨81, _⟩ => ⟨S512x1408, .f32⟩
  | .hbm, ⟨82, _⟩ => ⟨S512x1408, .bf16⟩
  | .hbm, ⟨83, _⟩ => ⟨S1408x512, .f32⟩
  | .hbm, ⟨84, _⟩ => ⟨S1408x512, .bf16⟩
  | .hbm, ⟨85, _⟩ => ⟨S32768x512, .f32⟩
  | .hbm, ⟨86, _⟩ => ⟨S32768x512, .f32⟩
  | .hbm, ⟨87, _⟩ => ⟨S8x4096x512, .f32⟩
  | .local _ .vmem, ⟨0, _⟩ => ⟨S512x512, .f32⟩
  | .local _ .vmem, ⟨1, _⟩ => ⟨S512x512, .f32⟩
  | .local _ .vmem, ⟨2, _⟩ => ⟨S512x1408, .bf16⟩
  | .local _ .vmem, ⟨3, _⟩ => ⟨S512x1408, .bf16⟩
  | .local _ .vmem, ⟨4, _⟩ => ⟨S1408x512, .bf16⟩
  | .local _ .vmem, ⟨5, _⟩ => ⟨S512x512, .f32⟩
  | .local _ .vmem, ⟨6, _⟩ => ⟨S512x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_cst_8 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_12 : Ref sig .tc := ⟨.hbm, 68, rfl⟩
abbrev main_cst_13 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1408x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1408x512_S1408x4x128 : S1408x512.ShapeCasts S1408x4x128
  reducesTo_S1408x4x128_S1408x4_d2 : S1408x4x128.ReducesTo [2] S1408x4
  h_S_ : 0 < S_.numel
  bcast_S1408x4_S1408x4x1_0_1 : S1408x4.BroadcastsInDim S1408x4x1 (![0, 1] : Fin 2 → Fin S1408x4x1.rank)
  bcast_S_S1408x4x1 : S_.BroadcastsInDim S1408x4x1 (![] : Fin 0 → Fin S1408x4x1.rank)
  bcast_S1408x4x1_S1408x4x128_0_1_2 : S1408x4x1.BroadcastsInDim S1408x4x128 (![0, 1, 2] : Fin 3 → Fin S1408x4x128.rank)
  bcast_S_S1408x4x128 : S_.BroadcastsInDim S1408x4x128 (![] : Fin 0 → Fin S1408x4x128.rank)
  shapeCasts_S1408x4x128_S1408x512 : S1408x4x128.ShapeCasts S1408x512
  shapeCasts_S512x1408_S512x11x128 : S512x1408.ShapeCasts S512x11x128
  reducesTo_S512x11x128_S512x11_d2 : S512x11x128.ReducesTo [2] S512x11
  bcast_S512x11_S512x11x1_0_1 : S512x11.BroadcastsInDim S512x11x1 (![0, 1] : Fin 2 → Fin S512x11x1.rank)
  bcast_S_S512x11x1 : S_.BroadcastsInDim S512x11x1 (![] : Fin 0 → Fin S512x11x1.rank)
  bcast_S512x11x1_S512x11x128_0_1_2 : S512x11x1.BroadcastsInDim S512x11x128 (![0, 1, 2] : Fin 3 → Fin S512x11x128.rank)
  bcast_S_S512x11x128 : S_.BroadcastsInDim S512x11x128 (![] : Fin 0 → Fin S512x11x128.rank)
  shapeCasts_S512x11x128_S512x1408 : S512x11x128.ShapeCasts S512x1408
  transposes_S1408x512_S512x1408_1_0 : S1408x512.Transposes [1, 0] S512x1408
  bitsLt_bf16_f32 : FTy.bits .bf16 < FTy.bits .f32
  transposes_S512x1408_S1408x512_1_0 : S512x1408.Transposes [1, 0] S1408x512
  shapeCasts_S8x4096x512_S32768x512 : S8x4096x512.ShapeCasts S32768x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1408_S512x1408_0_0 : ∀ a, (![0, 0] : Fin 2 → Nat) a + S512x1408.size a ≤ S512x1408.size a
  h_S512x1408 : 0 < S512x1408.numel
  shapeCasts_S512x1408_S512x1408 : S512x1408.ShapeCasts S512x1408
  inb_S1408x512_S1408x512_0_0 : ∀ a, (![0, 0] : Fin 2 → Nat) a + S1408x512.size a ≤ S1408x512.size a
  h_S1408x512 : 0 < S1408x512.numel
  shapeCasts_S1408x512_S1408x512 : S1408x512.ShapeCasts S1408x512
  shapeCasts_S32768x512_S8x4096x512 : S32768x512.ShapeCasts S8x4096x512
  dot_S512x512_S512x1408_S512x1408_1_0_0_1_n_n_wf : DotDims.WF S512x512 S512x1408 S512x1408 [1] [0] [0] [1] [] []
  dot_S512x1408_S1408x512_S512x512_1_0_0_1_n_n_wf : DotDims.WF S512x1408 S1408x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1408.size a ≤ S512x1408.size a
  hwx0_1 : ∀ i : grid0.Coords, EltTy.bits .bf16 = 32 ∨ (Rect.block (s := S512x1408) S512x1408.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1408.size a ≤ S512x1408.size a
  hwx0_2 : ∀ i : grid0.Coords, EltTy.bits .bf16 = 32 ∨ (Rect.block (s := S512x1408) S512x1408.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1408x512.size a ≤ S1408x512.size a
  hwx0_3 : ∀ i : grid0.Coords, EltTy.bits .bf16 = 32 ∨ (Rect.block (s := S1408x512) S1408x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S32768x512.size a
  hwx0_4 : ∀ i : grid0.Coords, EltTy.bits .f32 = 32 ∨ (Rect.block (s := S32768x512) S512x512.size (cc0_transform_4 i) (hinb0_4 i)).WholeWords (EltTy.packing .f32)

variable [Facts₀]

def dot_S512x512_S512x1408_S512x1408_1_0_0_1_n_n : DotDims S512x512 S512x1408 S512x1408 where
  lhsContracting := [1]
  rhsContracting := [0]
  lhsNonContracting := [0]
  rhsNonContracting := [1]
  lhsBatch := []
  rhsBatch := []
  wf := dot_S512x512_S512x1408_S512x1408_1_0_0_1_n_n_wf
def dot_S512x1408_S1408x512_S512x512_1_0_0_1_n_n : DotDims S512x1408 S1408x512 S512x512 where
  lhsContracting := [1]
  rhsContracting := [0]
  lhsNonContracting := [0]
  rhsNonContracting := [1]
  lhsBatch := []
  rhsBatch := []
  wf := dot_S512x1408_S1408x512_S512x512_1_0_0_1_n_n_wf

abbrev win0_0 : Pipeline.Window sig grid0 :=
  Pipeline.Window.ofSpec (Memref.whole main_v51) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S512x1408.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S512x1408.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1408x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v52) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S1408x512 : Shape := ⟨2, ![1408, 512]⟩
abbrev S512x1408 : Shape := ⟨2, ![512, 1408]⟩
abbrev S1408x4x128 : Shape := ⟨3, ![1408, 4, 128]⟩
abbrev S_ : Shape := ⟨0, ![]⟩
abbrev S1408x4 : Shape := ⟨2, ![1408, 4]⟩
abbrev S1408x4x1 : Shape := ⟨3, ![1408, 4, 1]⟩
abbrev S8x4096x1408 : Shape := ⟨3, ![8, 4096, 1408]⟩
abbrev S512x11x128 : Shape := ⟨3, ![512, 11, 128]⟩
abbrev S512x11 : Shape := ⟨2, ![512, 11]⟩
abbrev S512x11x1 : Shape := ⟨3, ![512, 11, 1]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S1408x512, .f32⟩
  | .hbm, ⟨2, _⟩ => ⟨S1408x512, .f32⟩
  | .hbm, ⟨3, _⟩ => ⟨S512x1408, .f32⟩
  | .hbm, ⟨4, _⟩ => ⟨S1408x4x128, .f32⟩
  | .hbm, ⟨5, _⟩ => ⟨S1408x4x128, .f32⟩
  | .hbm, ⟨6, _⟩ => ⟨S_, .f32⟩
  | .hbm, ⟨7, _⟩ => ⟨S1408x4, .f32⟩
  | .hbm, ⟨8, _⟩ => ⟨S1408x4x1, .f32⟩
  | .hbm, ⟨9, _⟩ => ⟨S_, .f32⟩
  | .hbm, ⟨10, _⟩ => ⟨S1408x4x1, .f32⟩
  | .hbm, ⟨11, _⟩ => ⟨S1408x4x1, .f32⟩
  | .hbm, ⟨12, _⟩ => ⟨S_, .f32⟩
  | .hbm, ⟨13, _⟩ => ⟨S1408x4x1, .f32⟩
  | .hbm, ⟨14, _⟩ => ⟨S1408x4x1, .f32⟩
  | .hbm, ⟨15, _⟩ => ⟨S1408x4x128, .f32⟩
  | .hbm, ⟨16, _⟩ => ⟨S1408x4x128, .f32⟩
  | .hbm, ⟨17, _⟩ => ⟨S1408x4x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1408x4x128, .f32⟩
  | .hbm, ⟨22, _⟩ => ⟨S1408x4x128, .f32⟩
  | .hbm, ⟨23, _⟩ => ⟨S_, .f32⟩
  | .hbm, ⟨24, _⟩ => ⟨S1408x4x128, .f32⟩
  | .hbm, ⟨25, _⟩ => ⟨S1408x4x128, .f32⟩
  | .hbm, ⟨26, _⟩ => ⟨S1408x4x128, .f32⟩
  | .hbm, ⟨27, _⟩ => ⟨S1408x4x128, .f32⟩
  | .hbm, ⟨28, _⟩ => ⟨S1408x512, .f32⟩
  | .hbm, ⟨29, _⟩ => ⟨S1408x512, .f32⟩
  | .hbm, ⟨30, _⟩ => ⟨S1408x512, .f32⟩
  | .hbm, ⟨31, _⟩ => ⟨S8x4096x1408, .f32⟩
  | .hbm, ⟨32, _⟩ => ⟨S1408x4x128, .f32⟩
  | .hbm, ⟨33, _⟩ => ⟨S1408x4x128, .f32⟩
  | .hbm, ⟨34, _⟩ => ⟨S_, .f32⟩
  | .hbm, ⟨35, _⟩ => ⟨S1408x4, .f32⟩
  | .hbm, ⟨36, _⟩ => ⟨S1408x4x1, .f32⟩
  | .hbm, ⟨37, _⟩ => ⟨S_, .f32⟩
  | .hbm, ⟨38, _⟩ => ⟨S1408x4x1, .f32⟩
  | .hbm, ⟨39, _⟩ => ⟨S1408x4x1, .f32⟩
  | .hbm, ⟨40, _⟩ => ⟨S_, .f32⟩
  | .hbm, ⟨41, _⟩ => ⟨S1408x4x1, .f32⟩
  | .hbm, ⟨42, _⟩ => ⟨S1408x4x1, .f32⟩
  | .hbm, ⟨43, _⟩ => ⟨S1408x4x128, .f32⟩
  | .hbm, ⟨44, _⟩ => ⟨S1408x4x128, .f32⟩
  | .hbm, ⟨45, _⟩ => ⟨S1408x4x128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1408x4x128, .f32⟩
  | .hbm, ⟨50, _⟩ => ⟨S1408x4x128, .f32⟩
  | .hbm, ⟨51, _⟩ => ⟨S_, .f32⟩
  | .hbm, ⟨52, _⟩ => ⟨S1408x4x128, .f32⟩
  | .hbm, ⟨53, _⟩ => ⟨S1408x4x128, .f32⟩
  | .hbm, ⟨54, _⟩ => ⟨S1408x4x128, .f32⟩
  | .hbm, ⟨55, _⟩ => ⟨S1408x4x128, .f32⟩
  | .hbm, ⟨56, _⟩ => ⟨S1408x512, .f32⟩
  | .hbm, ⟨57, _⟩ => ⟨S1408x512, .f32⟩
  | .hbm, ⟨58, _⟩ => ⟨S1408x512, .f32⟩
  | .hbm, ⟨59, _⟩ => ⟨S8x4096x1408, .f32⟩
  | .hbm, ⟨60, _⟩ => ⟨S8x4096x1408, .f32⟩
  | .hbm, ⟨61, _⟩ => ⟨S8x4096x1408, .f32⟩
  | .hbm, ⟨62, _⟩ => ⟨S_, .f32⟩
  | .hbm, ⟨63, _⟩ => ⟨S8x4096x1408, .f32⟩
  | .hbm, ⟨64, _⟩ => ⟨S8x4096x1408, .f32⟩
  | .hbm, ⟨65, _⟩ => ⟨S_, .f32⟩
  | .hbm, ⟨66, _⟩ => ⟨S8x4096x1408, .f32⟩
  | .hbm, ⟨67, _⟩ => ⟨S8x4096x1408, .f32⟩
  | .hbm, ⟨68, _⟩ => ⟨S8x4096x1408, .f32⟩
  | .hbm, ⟨69, _⟩ => ⟨S8x4096x1408, .f32⟩
  | .hbm, ⟨70, _⟩ => ⟨S512x11x128, .f32⟩
  | .hbm, ⟨71, _⟩ => ⟨S512x11x128, .f32⟩
  | .hbm, ⟨72, _⟩ => ⟨S_, .f32⟩
  | .hbm, ⟨73, _⟩ => ⟨S512x11, .f32⟩
  | .hbm, ⟨74, _⟩ => ⟨S512x11x1, .f32⟩
  | .hbm, ⟨75, _⟩ => ⟨S_, .f32⟩
  | .hbm, ⟨76, _⟩ => ⟨S512x11x1, .f32⟩
  | .hbm, ⟨77, _⟩ => ⟨S512x11x1, .f32⟩
  | .hbm, ⟨78, _⟩ => ⟨S_, .f32⟩
  | .hbm, ⟨79, _⟩ => ⟨S512x11x1, .f32⟩
  | .hbm, ⟨80, _⟩ => ⟨S512x11x1, .f32⟩
  | .hbm, ⟨81, _⟩ => ⟨S512x11x128, .f32⟩
  | .hbm, ⟨82, _⟩ => ⟨S512x11x128, .f32⟩
  | .hbm, ⟨83, _⟩ => ⟨S512x11x128, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S512x11x128, .f32⟩
  | .hbm, ⟨88, _⟩ => ⟨S512x11x128, .f32⟩
  | .hbm, ⟨89, _⟩ => ⟨S_, .f32⟩
  | .hbm, ⟨90, _⟩ => ⟨S512x11x128, .f32⟩
  | .hbm, ⟨91, _⟩ => ⟨S512x11x128, .f32⟩
  | .hbm, ⟨92, _⟩ => ⟨S512x11x128, .f32⟩
  | .hbm, ⟨93, _⟩ => ⟨S512x11x128, .f32⟩
  | .hbm, ⟨94, _⟩ => ⟨S512x1408, .f32⟩
  | .hbm, ⟨95, _⟩ => ⟨S512x1408, .f32⟩
  | .hbm, ⟨96, _⟩ => ⟨S512x1408, .f32⟩
  | .hbm, ⟨97, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_cst_8 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call4_v0 : Ref sig .tc := ⟨.hbm, 60, rfl⟩
abbrev main_call4_v1 : Ref sig .tc := ⟨.hbm, 61, rfl⟩
abbrev main_call4_cst : Ref sig .tc := ⟨.hbm, 62, rfl⟩
abbrev main_call4_v2 : Ref sig .tc := ⟨.hbm, 63, rfl⟩
abbrev main_call4_v3 : Ref sig .tc := ⟨.hbm, 64, rfl⟩
abbrev main_call4_cst_0 : Ref sig .tc := ⟨.hbm, 65, rfl⟩
abbrev main_call4_v4 : Ref sig .tc := ⟨.hbm, 66, rfl⟩
abbrev main_call4_v5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_9 : Ref sig .tc := ⟨.hbm, 72, rfl⟩
abbrev main_v40 : Ref sig .tc := ⟨.hbm, 73, rfl⟩
abbrev main_v41 : Ref sig .tc := ⟨.hbm, 74, rfl⟩
abbrev main_cst_10 : Ref sig .tc := ⟨.hbm, 75, rfl⟩
abbrev main_v42 : Ref sig .tc := ⟨.hbm, 76, rfl⟩
abbrev main_v43 : Ref sig .tc := ⟨.hbm, 77, rfl⟩
abbrev main_cst_11 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_12 : Ref sig .tc := ⟨.hbm, 84, rfl⟩
abbrev main_cst_13 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩

abbrev nD : Nat := 1
abbrev τ : Topo := Topo.v7x

variable {F : FTy → Type} [FloatOps F]

class Facts₀ : Prop where
  shapeCasts_S1408x512_S1408x4x128 : S1408x512.ShapeCasts S1408x4x128
  reducesTo_S1408x4x128_S1408x4_d2 : S1408x4x128.ReducesTo [2] S1408x4
  h_S_ : 0 < S_.numel
  bcast_S1408x4_S1408x4x1_0_1 : S1408x4.BroadcastsInDim S1408x4x1 (![0, 1] : Fin 2 → Fin S1408x4x1.rank)
  bcast_S_S1408x4x1 : S_.BroadcastsInDim S1408x4x1 (![] : Fin 0 → Fin S1408x4x1.rank)
  bcast_S1408x4x1_S1408x4x128_0_1_2 : S1408x4x1.BroadcastsInDim S1408x4x128 (![0, 1, 2] : Fin 3 → Fin S1408x4x128.rank)
  bcast_S_S1408x4x128 : S_.BroadcastsInDim S1408x4x128 (![] : Fin 0 → Fin S1408x4x128.rank)
  shapeCasts_S1408x4x128_S1408x512 : S1408x4x128.ShapeCasts S1408x512
  bcast_S_S8x4096x1408 : S_.BroadcastsInDim S8x4096x1408 (![] : Fin 0 → Fin S8x4096x1408.rank)
  shapeCasts_S512x1408_S512x11x128 : S512x1408.ShapeCasts S512x11x128
  reducesTo_S512x11x128_S512x11_d2 : S512x11x128.ReducesTo [2] S512x11
  bcast_S512x11_S512x11x1_0_1 : S512x11.BroadcastsInDim S512x11x1 (![0, 1] : Fin 2 → Fin S512x11x1.rank)
  bcast_S_S512x11x1 : S_.BroadcastsInDim S512x11x1 (![] : Fin 0 → Fin S512x11x1.rank)
  bcast_S512x11x1_S512x11x128_0_1_2 : S512x11x1.BroadcastsInDim S512x11x128 (![0, 1, 2] : Fin 3 → Fin S512x11x128.rank)
  bcast_S_S512x11x128 : S_.BroadcastsInDim S512x11x128 (![] : Fin 0 → Fin S512x11x128.rank)
  shapeCasts_S512x11x128_S512x1408 : S512x11x128.ShapeCasts S512x1408
  dot_S8x4096x512_S1408x512_S8x4096x1408_2_1_01_0_n_n_wf : DotDims.WF S8x4096x512 S1408x512 S8x4096x1408 [2] [1] [0, 1] [0] [] []
  dot_S8x4096x1408_S512x1408_S8x4096x512_2_1_01_0_n_n_wf : DotDims.WF S8x4096x1408 S512x1408 S8x4096x512 [2] [1] [0, 1] [0] [] []

variable [Facts₀]

def dot_S8x4096x512_S1408x512_S8x4096x1408_2_1_01_0_n_n : DotDims S8x4096x512 S1408x512 S8x4096x1408 where
  lhsContracting := [2]
  rhsContracting := [1]
  lhsNonContracting := [0, 1]
  rhsNonContracting := [0]
  lhsBatch := []
  rhsBatch := []
  wf := dot_S8x4096x512_S1408x512_S8x4096x1408_2_1_01_0_n_n_wf
def dot_S8x4096x1408_S512x1408_S8x4096x512_2_1_01_0_n_n : DotDims S8x4096x1408 S512x1408 S8x4096x512 where
  lhsContracting := [2]
  rhsContracting := [1]
  lhsNonContracting := [0, 1]
  rhsNonContracting := [0]
  lhsBatch := []
  rhsBatch := []
  wf := dot_S8x4096x1408_S512x1408_S8x4096x512_2_1_01_0_n_n_wf

class Facts : Prop extends Facts₀ where

variable [Facts]
-- ==== Proof.RegionEntry.lean ====
/-
  What the kernel region finds in its operands' arrays. Before the launch the host quantises each weight matrix
  (groups of 128 along the input axis: scale = mean |w| + ε, entries round(w / scale) clipped to [-1, 1], times scale),
  transposes it, and changes its format (the identity on the extended reals); the activations are only re-laid, the
  two leading axes [8, 4096] merged into 32768 rows. The quantisation itself is never opened here: it is the same
  sequence of host operations as the reference's, so each operand is stated over the reference's own stage.
-/
import proofs.«152482_j52750788329630_1_alg».proof.Proof.Gen.KernelIdeal.Frame
import proofs.«152482_j52750788329630_1_alg».proof.Proof.Gen.ReferenceIdeal.Read
import Idealize.ShloMosaic.Lib.StableHlo.Run

set_option maxRecDepth 16384

noncomputable section

namespace Cert.KernelIdeal.RegionEntry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The quantised gate weight, [1408, 512], as a function of the gate weight. -/
abbrev qGate (w : FVec Ideal S1408x512 .f32) : FVec Ideal S1408x512 .f32 := Cert.ReferenceIdeal.Read.val_main_v14 (F := Ideal) w
/-- The quantised up weight, [1408, 512]. -/
abbrev qUp (w : FVec Ideal S1408x512 .f32) : FVec Ideal S1408x512 .f32 := Cert.ReferenceIdeal.Read.val_main_v32 (F := Ideal) w
/-- The quantised down weight, [512, 1408]. -/
abbrev qDown (w : FVec Ideal S512x1408 .f32) : FVec Ideal S512x1408 .f32 := Cert.ReferenceIdeal.Read.val_main_v52 (F := Ideal) w

set_option maxHeartbeats 4000000 in
/-- Operand 0: the activations with the two leading axes merged. -/
theorem rows_eq : (V m c main_v51 : S32768x512.Idx → EReal)
    = shapeCast S32768x512 (m ((c : Thread nD τ).loc main_arg0)) shapeCasts_S8x4096x512_S32768x512 := by
  dsimp only [V, V0]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results_simp
  rfl

set_option maxHeartbeats 4000000 in
/-- Operand 1: the quantised gate weight, transposed to [512, 1408]. -/
theorem gateT_eq : (V m c main_v46 : S512x1408.Idx → EReal)
    = truncf .bf16 (transpose S512x1408 [1, 0] (qGate (m ((c : Thread nD τ).loc main_arg1)))
        transposes_S1408x512_S512x1408_1_0) bitsLt_bf16_f32 := by
  dsimp only [V, V0]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results_simp
  rfl

set_option maxHeartbeats 4000000 in
/-- Operand 2: the quantised up weight, transposed to [512, 1408]. -/
theorem upT_eq : (V m c main_v48 : S512x1408.Idx → EReal)
    = truncf .bf16 (transpose S512x1408 [1, 0] (qUp (m ((c : Thread nD τ).loc main_arg2)))
        transposes_S1408x512_S512x1408_1_0) bitsLt_bf16_f32 := by
  dsimp only [V, V0]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results_simp
  rfl

set_option maxHeartbeats 4000000 in
/-- Operand 3: the quantised down weight, transposed to [1408, 512]. -/
theorem downT_eq : (V m c main_v50 : S1408x512.Idx → EReal)
    = truncf .bf16 (transpose S1408x512 [1, 0] (qDown (m ((c : Thread nD τ).loc main_arg3)))
        transposes_S512x1408_S1408x512_1_0) bitsLt_bf16_f32 := by
  dsimp only [V, V0]
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append]
  after_results_simp
  rfl

end Cert.KernelIdeal.RegionEntry

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.KernelBody.lean ====
/-
  The kernel body's one store, read at an entry. On a block of 512 rows X (512 × 512) with the transposed weights
  A, B (512 × 1408) and C (1408 × 512) the body stores  ((X·A) ⊙ σ(X·A) ⊙ (X·B)) · C ; the format changes are the
  identity on the extended reals and the three matrix products are plain sums over the shared axis. So the entry
  (r, d) is  Σ_f (g_f · σ(g_f) · u_f) · C(f, d)  with  g_f = Σ_k X(r, k) · A(k, f)  and  u_f = Σ_k X(r, k) · B(k, f).
-/
import proofs.«152482_j52750788329630_1_alg».proof.Proof.Gen.KernelIdeal.Skeleton
import proofs.«152482_j52750788329630_1_alg».proof.Proof.LibPlainMatmul
import Idealize.ShloMosaic.Lib.Pipeline.Value

noncomputable section

namespace Cert.KernelIdeal.Body

open Cert.KernelIdeal Cert.KernelIdeal.Gen Idealize.ShloMosaic Idealize.ShloMosaic.ValueIdx

/-- The two products into the hidden width contract the block's 512 columns against the weight's 512 rows. -/
theorem hidden_dims : dot_S512x512_S512x1408_S512x1408_1_0_0_1_n_n = DotDims.plain 512 512 1408 := rfl
/-- The product back to the model width contracts the 1408 hidden columns. -/
theorem out_dims : dot_S512x1408_S1408x512_S512x512_1_0_0_1_n_n = DotDims.plain 512 1408 512 := rfl

/-- The stored block at row `r`, column `d`. -/
theorem pay_apply (x0 : Vec Ideal S512x512 .f32) (x1 x2 : Vec Ideal S512x1408 .bf16) (x3 : Vec Ideal S1408x512 .bf16)
    (r d : Fin 512) :
    k0_pay1 (F := Ideal) x0 x1 x2 x3 (ix2 r d)
      = ∑ f : Fin 1408,
          ((∑ k : Fin 512, x0 (ix2 r k) * x1 (ix2 k f)) * Ideal.logistic (∑ k : Fin 512, x0 (ix2 r k) * x1 (ix2 k f))
            * (∑ k : Fin 512, x0 (ix2 r k) * x2 (ix2 k f))) * x3 (ix2 f d) := by
  unfold k0_pay1
  simp only [shapeCast_self, hidden_dims, out_dims, matmul]
  rw [PlainMatmul.apply_zero]
  refine Finset.sum_congr rfl fun f _ => ?_
  show (FloatOps.mulf (FloatOps.mulf _ (FloatOps.logistic _)) _) * _ = _
  rw [PlainMatmul.apply_zero, PlainMatmul.apply_zero]
  rfl

end Cert.KernelIdeal.Body

end
-- ==== Proof.FfnSpec.lean ====
/-
  The gated feed-forward block as one function of its arrays, on the extended reals.

  With the activations laid out as 32768 rows of 512 entries, a gate weight Wg and an up weight Wu of shape [1408, 512]
  and a down weight Wd of shape [512, 1408], row r of the result is
      out(r, d) = Σ_f  h(r, f) · Wd(d, f),      h(r, f) = (g · σ(g)) · u,
      g = Σ_k x(r, k) · Wg(f, k),   u = Σ_k x(r, k) · Wu(f, k),   σ(g) = 1 / (1 + e^(-g)).
  Sums and products on the extended reals are commutative and associative, so the order of the terms plays no role.
-/
import Idealize.ShloMosaic.PureOps.Ideal
import Idealize.ShloMosaic.Lib.ValueIdx

noncomputable section

namespace Cert.FfnSpec

open Idealize.ShloMosaic Idealize.ShloMosaic.ValueIdx

/-- Row `r` of the activations against row `f` of a [1408, 512] weight: Σ_k x(r, k) · w(f, k). -/
def proj (x : (⟨2, ![32768, 512]⟩ : Shape).Idx → EReal) (w : (⟨2, ![1408, 512]⟩ : Shape).Idx → EReal)
    (r : Fin 32768) (f : Fin 1408) : EReal :=
  ∑ k : Fin 512, x (ix2 r k) * w (ix2 f k)

/-- The hidden activation: silu of the gate projection times the up projection. -/
def hidden (x : (⟨2, ![32768, 512]⟩ : Shape).Idx → EReal) (wg wu : (⟨2, ![1408, 512]⟩ : Shape).Idx → EReal)
    (r : Fin 32768) (f : Fin 1408) : EReal :=
  proj x wg r f * Ideal.logistic (proj x wg r f) * proj x wu r f

/-- The block's result, [32768, 512]: the hidden activations against the rows of the down weight. -/
def ffnRows (x : (⟨2, ![32768, 512]⟩ : Shape).Idx → EReal) (wg wu : (⟨2, ![1408, 512]⟩ : Shape).Idx → EReal)
    (wd : (⟨2, ![512, 1408]⟩ : Shape).Idx → EReal) : (⟨2, ![32768, 512]⟩ : Shape).Idx → EReal :=
  fun j => ∑ f : Fin 1408, hidden x wg wu (j 0) f * wd (ix2 (j 1) f)

end Cert.FfnSpec

end
-- ==== Proof.ResultRows.lean ====
/-
  The region's result array, [32768, 512], is the feed-forward function of the arrays the region finds.

  The grid has 64 points; point t takes rows 512·t … 512·t + 511 of the merged activations, all of each transposed
  weight, and writes rows 512·t … 512·t + 511 of the result. The stored block at (r, d) is the body's sum with the
  block of activations read at row 512·t + r and the transposed weights read with their two coordinates exchanged, so
  it is the function's value at row 512·t + r; the 64 blocks tile the 32768 rows (row i lies in block i / 512).
-/
import proofs.«152482_j52750788329630_1_alg».proof.Proof.Gen.KernelIdeal.Frame
import proofs.«152482_j52750788329630_1_alg».proof.Proof.RegionEntry
import proofs.«152482_j52750788329630_1_alg».proof.Proof.KernelBody
import proofs.«152482_j52750788329630_1_alg».proof.Proof.FfnSpec
import Idealize.ShloMosaic.Lib.Pipeline.Value
import Idealize.ShloMosaic.Lib.ValueLayout
import Idealize.ShloMosaic.Lib.ValueIdxCoords

set_option maxRecDepth 16384

noncomputable section

namespace Cert.KernelIdeal.Rows

open Cert.KernelIdeal Cert.KernelIdeal.Gen Cert.KernelIdeal.RegionEntry Cert.FfnSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The result rows as a function of the argument arrays: the merged activations against the quantised weights. -/
def rowsOut (c : Dev nD) : S32768x512.Idx → EReal :=
  ffnRows (shapeCast S32768x512 (m ((c : Thread nD τ).loc main_arg0)) shapeCasts_S8x4096x512_S32768x512)
    (qGate (m ((c : Thread nD τ).loc main_arg1))) (qUp (m ((c : Thread nD τ).loc main_arg2)))
    (qDown (m ((c : Thread nD τ).loc main_arg3)))

theorem origin : (![0, 0] : Fin 2 → Nat) = fun _ => 0 := funext fun a => by fin_cases a <;> rfl

/-- The index maps over the 64 points: the activations' and the result's block row is the point, the weights' blocks
    are the whole arrays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One stored entry: if row `r` of the block of activations is row `R` of `X`, and the three weight blocks are
    `wg`, `wu`, `wd` with their coordinates exchanged, the body's entry (r, d) is the function's value at (R, d). -/
theorem block_entry (x0 : Vec Ideal S512x512 .f32) (x1 x2 : Vec Ideal S512x1408 .bf16) (x3 : Vec Ideal S1408x512 .bf16)
    (X : S32768x512.Idx → EReal) (wg wu : S1408x512.Idx → EReal) (wd : S512x1408.Idx → EReal)
    (r d : Fin 512) (R : Fin 32768)
    (h0 : ∀ k : Fin 512, x0 (ix2 r k) = X (ix2 R k))
    (h1 : ∀ (k : Fin 512) (f : Fin 1408), x1 (ix2 k f) = wg (ix2 f k))
    (h2 : ∀ (k : Fin 512) (f : Fin 1408), x2 (ix2 k f) = wu (ix2 f k))
    (h3 : ∀ f : Fin 1408, x3 (ix2 f d) = wd (ix2 d f)) :
    k0_pay1 (F := Ideal) x0 x1 x2 x3 (ix2 r d) = ffnRows X wg wu wd (ix2 R d) := by
  rw [Body.pay_apply]
  unfold ffnRows FfnSpec.hidden proj
  simp only [h0, h1, h2, h3, ix2_0, ix2_1]

set_option maxHeartbeats 1000000 in
/-- Row `r` of point `t`'s block of activations is row 512·t + r of the merged activations. -/
theorem act_block (c : Dev nD) (t : Fin cfg0.N) (r k : Fin 512) (R : Fin 32768) (hR : R.val = t.val * 512 + r.val) :
    iblk m c 0 t (ix2 r k)
      = shapeCast S32768x512 (m ((c : Thread nD τ).loc main_arg0)) shapeCasts_S8x4096x512_S32768x512 (ix2 R k) := by
  obtain ⟨e00, e01, -⟩ := idx_facts t
  show V m c main_v51 (((cfg0.win 0).blk t).view.emb (ix2 r k)) = _
  rw [rows_eq]
  refine congrArg _ (funext fun a => Fin.ext ?_)
  match a with
  | ⟨0, _⟩ => show win0_0.index t (0 : Fin 2) * 512 + 1 * r.val = R.val; omega
  | ⟨1, _⟩ => show win0_0.index t (1 : Fin 2) * 512 + 1 * k.val = k.val; omega

set_option maxHeartbeats 1000000 in
/-- The gate operand's block is the whole transposed quantised gate weight. -/
theorem gate_block (c : Dev nD) (t : Fin cfg0.N) (k : Fin 512) (f : Fin 1408) :
    iblk m c 1 t (ix2 k f) = qGate (m ((c : Thread nD τ).loc main_arg1)) (ix2 f k) := by
  obtain ⟨-, -, e10, e11, -⟩ := idx_facts t
  show V m c main_v46 (((cfg0.win 1).blk t).view.emb (ix2 k f)) = _
  rw [gateT_eq]
  have e : ((cfg0.win 1).blk t).view.emb (ix2 k f) = ix2 k f := funext fun a => Fin.ext (by
    match a with
    | ⟨0, _⟩ => show win0_1.index t (0 : Fin 2) * 512 + 1 * k.val = k.val; omega
    | ⟨1, _⟩ => show win0_1.index t (1 : Fin 2) * 1408 + 1 * f.val = f.val; omega)
  rw [e]
  show transpose S512x1408 [1, 0] (qGate (m ((c : Thread nD τ).loc main_arg1))) transposes_S1408x512_S512x1408_1_0 (ix2 k f) = _
  exact transpose_ix2_apply (qGate (m ((c : Thread nD τ).loc main_arg1))) transposes_S1408x512_S512x1408_1_0 k f

set_option maxHeartbeats 1000000 in
/-- The up operand's block is the whole transposed quantised up weight. -/
theorem up_block (c : Dev nD) (t : Fin cfg0.N) (k : Fin 512) (f : Fin 1408) :
    iblk m c 2 t (ix2 k f) = qUp (m ((c : Thread nD τ).loc main_arg2)) (ix2 f k) := by
  obtain ⟨-, -, -, -, e20, e21, -⟩ := idx_facts t
  show V m c main_v48 (((cfg0.win 2).blk t).view.emb (ix2 k f)) = _
  rw [upT_eq]
  have e : ((cfg0.win 2).blk t).view.emb (ix2 k f) = ix2 k f := funext fun a => Fin.ext (by
    match a with
    | ⟨0, _⟩ => show win0_2.index t (0 : Fin 2) * 512 + 1 * k.val = k.val; omega
    | ⟨1, _⟩ => show win0_2.index t (1 : Fin 2) * 1408 + 1 * f.val = f.val; omega)
  rw [e]
  show transpose S512x1408 [1, 0] (qUp (m ((c : Thread nD τ).loc main_arg2))) transposes_S1408x512_S512x1408_1_0 (ix2 k f) = _
  exact transpose_ix2_apply (qUp (m ((c : Thread nD τ).loc main_arg2))) transposes_S1408x512_S512x1408_1_0 k f

set_option maxHeartbeats 1000000 in
/-- The down operand's block is the whole transposed quantised down weight. -/
theorem down_block (c : Dev nD) (t : Fin cfg0.N) (f : Fin 1408) (d : Fin 512) :
    iblk m c 3 t (ix2 f d) = qDown (m ((c : Thread nD τ).loc main_arg3)) (ix2 d f) := by
  obtain ⟨-, -, -, -, -, -, e30, e31, -⟩ := idx_facts t
  show V m c main_v50 (((cfg0.win 3).blk t).view.emb (ix2 f d)) = _
  rw [downT_eq]
  have e : ((cfg0.win 3).blk t).view.emb (ix2 f d) = ix2 f d := funext fun a => Fin.ext (by
    match a with
    | ⟨0, _⟩ => show win0_3.index t (0 : Fin 2) * 1408 + 1 * f.val = f.val; omega
    | ⟨1, _⟩ => show win0_3.index t (1 : Fin 2) * 512 + 1 * d.val = d.val; omega)
  rw [e]
  show transpose S1408x512 [1, 0] (qDown (m ((c : Thread nD τ).loc main_arg3))) transposes_S512x1408_S1408x512_1_0 (ix2 f d) = _
  exact transpose_ix2_apply (qDown (m ((c : Thread nD τ).loc main_arg3))) transposes_S512x1408_S1408x512_1_0 f d

set_option maxHeartbeats 1000000 in
/-- What point `t` writes back is block `t` of the result rows. -/
theorem flushed_eq (c : Dev nD) (t : Fin cfg0.N) :
    (dats m 0 c).flushed 4 t = ((cfg0.win 4).blk t).view.read (Elt Ideal) (rowsOut m c) := by
  show (cfg0.win 4).cut (grid0.coords t) ((dats m 0 c).after 4 t) = _
  rw [after0_4]
  unfold out0_4
  rw [View.canon_unit_zero origin]
  simp only [View.ld_unit_zero (S := S512x512) origin, View.ld_unit_zero (S := S512x1408) origin,
    View.ld_unit_zero (S := S1408x512) origin]
  obtain ⟨-, -, -, -, -, -, -, -, e40, e41⟩ := idx_facts t
  have hN : grid0.N = 64 := N_0
  have ht : t.val < 64 := hN ▸ t.isLt
  funext j
  show k0_pay1 (F := Ideal) (iblk m c 0 t) (iblk m c 1 t) (iblk m c 2 t) (iblk m c 3 t) j
    = rowsOut m c (((cfg0.win 4).blk t).view.emb j)
  obtain ⟨r, d, rfl⟩ : ∃ (r d : Fin 512), j = ix2 r d := ⟨j 0, j 1, eq_ix2 (n0 := 512) (n1 := 512) j⟩
  have hlt : t.val * 512 + r.val < 32768 := by have := r.isLt; omega
  refine (block_entry (iblk m c 0 t) (iblk m c 1 t) (iblk m c 2 t) (iblk m c 3 t)
    (shapeCast S32768x512 (m ((c : Thread nD τ).loc main_arg0)) shapeCasts_S8x4096x512_S32768x512)
    (qGate (m ((c : Thread nD τ).loc main_arg1))) (qUp (m ((c : Thread nD τ).loc main_arg2)))
    (qDown (m ((c : Thread nD τ).loc main_arg3))) r d ⟨t.val * 512 + r.val, hlt⟩
    (fun k => act_block m c t r k _ rfl) (gate_block m c t) (up_block m c t) (fun f => down_block m c t f d)).trans ?_
  unfold rowsOut
  refine congrArg _ (funext fun a => Fin.ext ?_)
  match a with
  | ⟨0, _⟩ => show t.val * 512 + r.val = win0_4.index t (0 : Fin 2) * 512 + 1 * r.val; omega
  | ⟨1, _⟩ => show d.val = win0_4.index t (1 : Fin 2) * 512 + 1 * d.val; omega

/-- An index of the result is in point `t`'s block iff each coordinate is in the block's range on its axis. -/
theorem mem_blk (t : Fin cfg0.N) (i : S32768x512.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v52).slice (win0_4.rect t)).set ↔ _
  rw [View.set_slice_whole, Rect.mem_set_unit]
  exact Iff.rfl

/-- Every row is in the block of the point numbered row / 512. -/
theorem cover (i : S32768x512.Idx) :
    ∃ t : Fin cfg0.N, (cfg0.win 4).flush t = true ∧ i ∈ ((cfg0.win 4).blk t).view.set := by
  have hi0 : (i 0).val < 32768 := (i 0).isLt
  have hi1 : (i 1).val < 512 := (i 1).isLt
  have hN : grid0.N = 64 := N_0
  have hlt : (i 0).val / 512 < grid0.N := by omega
  obtain ⟨_, _, _, _, _, _, _, _, e40, e41⟩ := idx_facts ⟨(i 0).val / 512, hlt⟩
  refine ⟨⟨(i 0).val / 512, hlt⟩, flush0_4 _, ?_⟩
  rw [mem_blk]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    have e : win0_4.index ⟨(i 0).val / 512, hlt⟩ (0 : Fin 2) = (i 0).val / 512 := e40
    omega
  | ⟨1, _⟩ =>
    show win0_4.index ⟨(i 0).val / 512, hlt⟩ (1 : Fin 2) * 512 ≤ (i 1).val
      ∧ (i 1).val < win0_4.index ⟨(i 0).val / 512, hlt⟩ (1 : Fin 2) * 512 + 512
    omega

/-- The result array after the region. -/
theorem final (c : Dev nD) : (dats m 0 c).arrAt 4 cfg0.N = rowsOut m c :=
  (dats m 0 c).arrAt_eq_of_cover 4 (rowsOut m c) (fun t _ => flushed_eq m c t) cover

end Cert.KernelIdeal.Rows

end
-- ==== Proof.KernelRun.lean ====
/-
  The kernel program's run, with its result named. After the region one host operation splits the 32768 result rows
  back into [8, 4096, 512]; so the program ends with its result buffer at the feed-forward function of the merged rows,
  split, and its four argument arrays unchanged.
-/
import proofs.«152482_j52750788329630_1_alg».proof.Proof.ResultRows
import Idealize.ShloMosaic.Lib.StableHlo.Run

set_option maxRecDepth 16384

noncomputable section

namespace Cert.KernelIdeal.Rows

open Cert.KernelIdeal Cert.KernelIdeal.Gen Cert.KernelIdeal.RegionEntry Cert.FfnSpec
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-- The program's result: the result rows split into [8, 4096, 512]. -/
def result (c : Dev nD) : S8x4096x512.Idx → EReal :=
  shapeCast S8x4096x512 (rowsOut m c) shapeCasts_S32768x512_S8x4096x512

/-- The result buffer after the operation that follows the region. -/
theorem tail_eq (c : Dev nD) :
    (Pipeline.afterTail₀ cfgs (dats m) 0 (V0 m) [hostOps1] c main_v53 : S8x4096x512.Idx → EReal) = result m c := by
  unfold Pipeline.afterTail₀
  show StableHlo.after hostOps1 _ (Proc.devRef .tc main_v53) = _
  after_results
  have e : Pipeline.withArrays (cfgs 0).spec c (V0 m c) (fun w => (dats m 0 c).arrAt w (cfgs 0).N)
      (Proc.devRef .tc main_v52) = rowsOut m c :=
    (Pipeline.withArrays_arr spec0 launch0.win.arr_inj c _ _ 4).trans (final m c)
  rw [e]
  rfl

/-- The kernel program on the extended reals: every weakly fair execution terminates with the result buffer at
    `result` and the four argument arrays unchanged. -/
theorem run : θ_run defs (onTc (τ := τ) (main (F := Ideal))) ⟨m, fun _ => 0, ρ⟩ fun r => ∀ c : Dev nD,
      r.2.mem ((c.tc : Thread nD τ).loc main_v53) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v53 (Pipeline.mem_restRefs_of main_v53 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Rows

end
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.LibStraightThrough.lean ====
/-
  Laws on the extended reals for a weight used through the "straight-through" form and for a sigmoid written out.

  • The f32 word 0x3F800000 is the number 1 and the f32 word 0x7F800000 is +∞.
  • An extended real x with |x| = max(x, -x) < +∞ is a real number (the finiteness test a precondition states per entry).
  • For a REAL number w and ANY extended real q:  w + (q - w) = q.  At q = ±∞ both sides are q, because adding or
    subtracting a real leaves an infinity unchanged; so a program that multiplies by  w + (q(w) - w)  multiplies by
    q(w) as soon as w is finite, with nothing asked of q(w).
  • 1 / (1 + e^(-g)) written with the f32 word 1.0 is the sigmoid of g, on every extended real.
-/
import Idealize.ShloMosaic.PureOps.Ideal
import Idealize.ShloMosaic.PureOps.IdealRules

noncomputable section

namespace Cert.LibStraightThrough

open Idealize.ShloMosaic

/-- The f32 word 0x3F800000 is the number 1. -/
theorem one_f32 : Ideal.ofBits .f32 0x3F800000#32 = 1 := IdealRules.sign_bit.ideal_onePat .f32

/-- The f32 word 0x7F800000 is +∞. -/
theorem inf_f32 : Ideal.ofBits .f32 0x7F800000#32 = ⊤ := by simp [Ideal.ofBits, Ideal.ieee]

/-- An extended real whose absolute value compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  induction x with
  | bot => exact absurd h (by simp [Ideal.cmp])
  | top => exact absurd h (by simp [Ideal.cmp])
  | coe r => exact ⟨r, rfl⟩

/-- For a real `w` and any extended real `q`: w + (q - w) = q. -/
theorem add_sub_cancel_real (w : ℝ) (q : EReal) : (w : EReal) + (q - (w : EReal)) = q := by
  induction q with
  | bot => rw [EReal.bot_sub, EReal.add_bot]
  | top => rw [EReal.top_sub_coe, EReal.add_top_of_ne_bot (EReal.coe_ne_bot w)]
  | coe r => rw [← EReal.coe_sub, ← EReal.coe_add]; exact congrArg _ (by ring)

/-- 1 / (1 + e^(-g)) written with the f32 word 1.0 is the sigmoid of g, on every extended real. -/
theorem logistic_spelt (g : EReal) :
    Ideal.div (Ideal.ofBits .f32 0x3F800000#32) (Ideal.ofBits .f32 0x3F800000#32 + Ideal.exp (-g)) = Ideal.logistic g := by
  rw [one_f32]; rfl

end Cert.LibStraightThrough

end
-- ==== Proof.ReferenceFfn.lean ====
/-
  The reference, stage by stage, is the feed-forward function of the merged rows.

  The reference multiplies by each quantised weight through the "straight-through" form  w + (q(w) - w); on a REAL
  entry w this is q(w) itself, whatever q(w) is, so under the precondition the three weight operands of its products
  are the quantised weights. Its sigmoid is spelt 1 / (1 + e^(-g)) with the f32 word 1.0. Its two contractions run
  over the last axis of a [8, 4096, ·] array; row (b, s) of that array is row b·4096 + s of the merged [32768, ·] one.
-/
import proofs.«152482_j52750788329630_1_alg».proof.Proof.Gen.ReferenceIdeal.Read
import proofs.«152482_j52750788329630_1_alg».proof.Proof.FfnSpec
import proofs.«152482_j52750788329630_1_alg».proof.Proof.LibFlattenBroadcast
import proofs.«152482_j52750788329630_1_alg».proof.Proof.LibStraightThrough

noncomputable section

namespace Cert.ReferenceIdeal.Ffn

open Cert.ReferenceIdeal Cert.ReferenceIdeal.Read Idealize.ShloMosaic Idealize.ShloMosaic.ValueIdx Cert.FfnSpec Cert.LibStraightThrough

/-- The gate weight as the reference's first product reads it: the quantised gate weight. -/
theorem gate_operand (x1 : (⟨S1408x512, .f32⟩ : BufTy).Contents (Elt Ideal)) (h1 : ∀ j, ∃ r : ℝ, x1 j = (r : EReal)) :
    val_main_v16 (F := Ideal) x1 = val_main_v14 (F := Ideal) x1 := by
  funext j
  obtain ⟨r, hr⟩ := h1 j
  rw [val_main_v16_apply, val_main_v15_apply]
  generalize val_main_v14 (F := Ideal) x1 j = q
  rw [hr]
  exact add_sub_cancel_real r q

/-- The up weight as the second product reads it: the quantised up weight. -/
theorem up_operand (x2 : (⟨S1408x512, .f32⟩ : BufTy).Contents (Elt Ideal)) (h2 : ∀ j, ∃ r : ℝ, x2 j = (r : EReal)) :
    val_main_v34 (F := Ideal) x2 = val_main_v32 (F := Ideal) x2 := by
  funext j
  obtain ⟨r, hr⟩ := h2 j
  rw [val_main_v34_apply, val_main_v33_apply]
  generalize val_main_v32 (F := Ideal) x2 j = q
  rw [hr]
  exact add_sub_cancel_real r q

/-- The down weight as the last product reads it: the quantised down weight. -/
theorem down_operand (x3 : (⟨S512x1408, .f32⟩ : BufTy).Contents (Elt Ideal)) (h3 : ∀ j, ∃ r : ℝ, x3 j = (r : EReal)) :
    val_main_v54 (F := Ideal) x3 = val_main_v52 (F := Ideal) x3 := by
  funext j
  obtain ⟨r, hr⟩ := h3 j
  rw [val_main_v54_apply, val_main_v53_apply]
  generalize val_main_v52 (F := Ideal) x3 j = q
  rw [hr]
  exact add_sub_cancel_real r q

section

variable (x0 : (⟨S8x4096x512, .f32⟩ : BufTy).Contents (Elt Ideal))
  (hmerge : S8x4096x512.ShapeCasts ⟨2, ![32768, 512]⟩)

/-- A contraction of the activations' last axis against row `f` of a weight, at (b, s): the merged row's projection. -/
theorem proj_eq (w : (⟨2, ![1408, 512]⟩ : Shape).Idx → EReal) (b : Fin 8) (s : Fin 4096) (f : Fin 1408) (R : Fin 32768)
    (hR : R.val = b.val * 4096 + s.val) :
    (∑ k : Fin 512, x0 (ix3 b s k) * w (ix2 f k)) = proj (shapeCast ⟨2, ![32768, 512]⟩ x0 hmerge) w R f := by
  unfold proj
  refine Finset.sum_congr rfl fun k _ => ?_
  rw [Cert.LibFlattenBroadcast.shapeCast_abc_nc_apply x0 hmerge b s k R hR]

end

/-- The reference's result: the merged rows' feed-forward result, split back into [8, 4096, 512]. -/
theorem result_eq (x0 : (⟨S8x4096x512, .f32⟩ : BufTy).Contents (Elt Ideal))
    (x1 x2 : (⟨S1408x512, .f32⟩ : BufTy).Contents (Elt Ideal)) (x3 : (⟨S512x1408, .f32⟩ : BufTy).Contents (Elt Ideal))
    (hmerge : S8x4096x512.ShapeCasts ⟨2, ![32768, 512]⟩) (hsplit : (⟨2, ![32768, 512]⟩ : Shape).ShapeCasts S8x4096x512)
    (h1 : ∀ j, ∃ r : ℝ, x1 j = (r : EReal)) (h2 : ∀ j, ∃ r : ℝ, x2 j = (r : EReal)) (h3 : ∀ j, ∃ r : ℝ, x3 j = (r : EReal)) :
    val_main_v55 (F := Ideal) x0 x1 x2 x3
      = shapeCast S8x4096x512 (ffnRows (shapeCast ⟨2, ![32768, 512]⟩ x0 hmerge) (val_main_v14 (F := Ideal) x1)
          (val_main_v32 (F := Ideal) x2) (val_main_v52 (F := Ideal) x3)) hsplit := by
  funext i
  obtain ⟨b, s, d, rfl⟩ : ∃ (b : Fin 8) (s : Fin 4096) (d : Fin 512), i = ix3 b s d := ⟨i 0, i 1, i 2, eq_ix3 i⟩
  have hlt : b.val * 4096 + s.val < 32768 := by have := b.isLt; have := s.isLt; omega
  rw [Cert.LibFlattenBroadcast.shapeCast_nc_abc_apply _ hsplit b s d ⟨b.val * 4096 + s.val, hlt⟩ rfl]
  rw [val_main_v55_apply, down_operand x3 h3]
  unfold ffnRows
  refine Finset.sum_congr rfl fun f _ => ?_
  have eL : lidx_main_v55 (ix3 b s d) f = ix3 b s f :=
    funext fun a => Fin.ext (by match a with | ⟨0, _⟩ => rfl | ⟨1, _⟩ => rfl | ⟨2, _⟩ => rfl)
  have eR : ridx_main_v55 (ix3 b s d) f = ix2 d f :=
    funext fun a => Fin.ext (by match a with | ⟨0, _⟩ => rfl | ⟨1, _⟩ => rfl)
  rw [eL, eR]
  have eg : val_main_v17 (F := Ideal) x0 x1 (ix3 b s f)
      = proj (shapeCast ⟨2, ![32768, 512]⟩ x0 hmerge) (val_main_v14 (F := Ideal) x1) ⟨b.val * 4096 + s.val, hlt⟩ f := by
    rw [val_main_v17_apply, gate_operand x1 h1, ← proj_eq x0 hmerge _ b s f _ rfl]
    refine Finset.sum_congr rfl fun k _ => ?_
    have el : lidx_main_v17 (ix3 b s f) k = ix3 b s k :=
      funext fun a => Fin.ext (by match a with | ⟨0, _⟩ => rfl | ⟨1, _⟩ => rfl | ⟨2, _⟩ => rfl)
    have er : ridx_main_v17 (ix3 b s f) k = ix2 f k :=
      funext fun a => Fin.ext (by match a with | ⟨0, _⟩ => rfl | ⟨1, _⟩ => rfl)
    rw [el, er]
  have eu : val_main_v35 (F := Ideal) x0 x2 (ix3 b s f)
      = proj (shapeCast ⟨2, ![32768, 512]⟩ x0 hmerge) (val_main_v32 (F := Ideal) x2) ⟨b.val * 4096 + s.val, hlt⟩ f := by
    rw [val_main_v35_apply, up_operand x2 h2, ← proj_eq x0 hmerge _ b s f _ rfl]
    refine Finset.sum_congr rfl fun k _ => ?_
    have el : lidx_main_v35 (ix3 b s f) k = ix3 b s k :=
      funext fun a => Fin.ext (by match a with | ⟨0, _⟩ => rfl | ⟨1, _⟩ => rfl | ⟨2, _⟩ => rfl)
    have er : ridx_main_v35 (ix3 b s f) k = ix2 f k :=
      funext fun a => Fin.ext (by match a with | ⟨0, _⟩ => rfl | ⟨1, _⟩ => rfl)
    rw [el, er]
  have eh : val_main_v37 (F := Ideal) x0 x1 x2 (ix3 b s f)
      = hidden (shapeCast ⟨2, ![32768, 512]⟩ x0 hmerge) (val_main_v14 (F := Ideal) x1) (val_main_v32 (F := Ideal) x2)
          ⟨b.val * 4096 + s.val, hlt⟩ f := by
    rw [val_main_v37_apply, val_main_v36_apply, val_main_call4_v5_apply, val_main_call4_v4_apply,
      val_main_call4_cst_0_apply, val_main_call4_v3_apply, val_main_call4_v2_apply, val_main_call4_cst_apply,
      val_main_call4_v1_apply, val_main_call4_v0_apply, eg, eu]
    unfold FfnSpec.hidden
    show _ * Ideal.div (Ideal.ofBits .f32 0x3F800000#32) (Ideal.ofBits .f32 0x3F800000#32 + Ideal.exp (- _)) * _ = _
    rw [logistic_spelt]
  rw [eh]

end Cert.ReferenceIdeal.Ffn

end
-- ==== Proof.FiniteWeights.lean ====
/-
  From the precondition to real weights. The precondition is the conjunction, input by input, of "every entry x has
  |x| < +∞" (a reduction by "and" over the whole array). On the extended reals |x| = max(x, -x) is +∞ exactly at the two
  infinities, so an entry with |x| < +∞ is a real number. Only the three weight arrays are needed later.
-/
import proofs.«152482_j52750788329630_1_alg».proof.Pre_finite_inputs
import proofs.«152482_j52750788329630_1_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx
import proofs.«152482_j52750788329630_1_alg».proof.Proof.LibStraightThrough

noncomputable section

namespace Cert.Pre_finite_inputs.Finite

open Cert.Pre_finite_inputs Idealize.ShloMosaic Cert.LibStraightThrough

/-- A rank-0 array has one index. -/
instance : Subsingleton S_.Idx := ⟨fun _ _ => funext fun d => d.elim0⟩

/-- Under the precondition every entry of each of the three weight arrays is a real number. -/
theorem weights_real (a0 : FVec Ideal S8x4096x512 .f32) (a1 a2 : FVec Ideal S1408x512 .f32) (a3 : FVec Ideal S512x1408 .f32)
    (h : fn (F := Ideal) a0 a1 a2 a3 = fun _ => 1#1) :
    (∀ j, ∃ r : ℝ, a1 j = (r : EReal)) ∧ (∀ j, ∃ r : ℝ, a2 j = (r : EReal)) ∧ (∀ j, ∃ r : ℝ, a3 j = (r : EReal)) := by
  have h0 := congrFun h ValueIdx.ix0
  dsimp only [fn, fn_part1] at h0
  obtain ⟨h13, h17⟩ := IntOp.andi_eq_one.1 h0
  obtain ⟨h8, h12⟩ := IntOp.andi_eq_one.1 h13
  obtain ⟨_, h7⟩ := IntOp.andi_eq_one.1 h8
  exact ⟨fun j => real_of_abs_lt_inf _ (Host.reduce_andi_all _ _ _ _ _ h7 j),
    fun j => real_of_abs_lt_inf _ (Host.reduce_andi_all _ _ _ _ _ h12 j),
    fun j => real_of_abs_lt_inf _ (Host.reduce_andi_all _ _ _ _ _ h17 j)⟩

end Cert.Pre_finite_inputs.Finite

end
-- ==== Proof.lean ====
/- The proof of `Cert.Claim` (proofs.«152482_j52750788329630_1_alg».proof.Defs).

   Both programs compute a gated feed-forward block with group-quantised weights. With x the activations
   [8, 4096, 512] and q(W) a weight quantised in groups of 128 along its input axis,
       out(b, s, d) = Σ_f ( g · σ(g) · u ) · q(Wd)(d, f),   g = Σ_k x(b, s, k) · q(Wg)(f, k),   u = Σ_k x(b, s, k) · q(Wu)(f, k),
   σ the sigmoid. The kernel quantises and transposes the weights on the host, merges the two leading axes of x into
   32768 rows, computes 512 rows per grid point by three matrix products, and splits the rows again. The reference
   multiplies by  W + (q(W) - W)  and spells the sigmoid  1 / (1 + e^(-g)).

   On the extended reals the format changes are the identity and a matrix product is the plain sum, so the kernel's
   result is the function above of the merged rows (Proof/KernelBody, Proof/RegionEntry, Proof/ResultRows,
   Proof/KernelRun). The reference's is the same function (Proof/ReferenceFfn) because for a REAL w and any extended
   real q, w + (q - w) = q: this is the one place the precondition is used — every weight entry is finite
   (Proof/FiniteWeights). The quantisation is the same sequence of host operations in both programs and is never
   opened. Nothing of the ideal pass's rewrites applies, so the idealised kernel is the kernel's own text. -/
import proofs.«152482_j52750788329630_1_alg».proof.Defs
import proofs.«152482_j52750788329630_1_alg».proof.Proof.Gen.Kernel
import proofs.«152482_j52750788329630_1_alg».proof.Proof.Gen.Kernel.Skeleton
import proofs.«152482_j52750788329630_1_alg».proof.Proof.Gen.Kernel.Launch
import proofs.«152482_j52750788329630_1_alg».proof.Proof.Gen.Kernel.Points
import proofs.«152482_j52750788329630_1_alg».proof.Proof.Gen.Kernel.Frame
import proofs.«152482_j52750788329630_1_alg».proof.Proof.Gen.KernelIdeal
import proofs.«152482_j52750788329630_1_alg».proof.Proof.Gen.KernelIdeal.Skeleton
import proofs.«152482_j52750788329630_1_alg».proof.Proof.Gen.KernelIdeal.Launch
import proofs.«152482_j52750788329630_1_alg».proof.Proof.Gen.KernelIdeal.Points
import proofs.«152482_j52750788329630_1_alg».proof.Proof.Gen.KernelIdeal.Frame
import proofs.«152482_j52750788329630_1_alg».proof.Proof.Gen.ReferenceIdeal
import proofs.«152482_j52750788329630_1_alg».proof.Proof.Gen.Pre_finite_inputs
import proofs.«152482_j52750788329630_1_alg».proof.Proof.Gen.ReferenceIdeal.Run
import proofs.«152482_j52750788329630_1_alg».proof.Proof.Gen.ReferenceIdeal.Read
import proofs.«152482_j52750788329630_1_alg».proof.Proof.KernelRun
import proofs.«152482_j52750788329630_1_alg».proof.Proof.ReferenceFfn
import proofs.«152482_j52750788329630_1_alg».proof.Proof.FiniteWeights
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No rewrite of the ideal pass applied: nothing to preserve. -/
theorem preserves : Cert.preserves_Kernel_KernelIdeal := trivial

/-- From memories that agree on the arguments, with finite inputs, both programs end with the feed-forward function of
    the merged rows, split into [8, 4096, 512]. -/
theorem algebraic : Cert.algebraic_KernelIdeal_ReferenceIdeal := by
  intro m ρ m' ρ' hpre hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2, h3⟩ := Cert.Pre_finite_inputs.Finite.weights_real _ _ _ _ (hpre c)
  rw [Cert.ReferenceIdeal.Read.val_main_v55_eq, (hagree c).1, (hagree c).2.1, (hagree c).2.2.1, (hagree c).2.2.2]
  unfold Cert.KernelIdeal.Rows.result Cert.KernelIdeal.Rows.rowsOut
  exact Cert.ReferenceIdeal.Ffn.result_eq _ _ _ _ _ _ h1 h2 h3

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
